-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4x4096x4096 : Shape := ⟨3, ![4, 4096, 4096]⟩
abbrev S2048x1024 : Shape := ⟨2, ![2048, 1024]⟩
abbrev S512x1024 : Shape := ⟨2, ![512, 1024]⟩
abbrev S1x2048x512 : Shape := ⟨3, ![1, 2048, 512]⟩
abbrev S1x1024 : Shape := ⟨2, ![1, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4x4096x4096, .f32⟩
  | .local _ .vmem, ⟨0, _⟩ => ⟨S2048x1024, .f32⟩
  | .local _ .vmem, ⟨1, _⟩ => ⟨S2048x1024, .f32⟩
  | .local _ .vmem, ⟨2, _⟩ => ⟨S512x1024, .f32⟩
  | .local _ .vmem, ⟨3, _⟩ => ⟨S512x1024, .f32⟩
  | .local _ .vmem, ⟨4, _⟩ => ⟨S1x2048x512, .f32⟩
  | .local _ .vmem, ⟨5, _⟩ => ⟨S1x2048x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  iota_S1x1024_d1_w32 : S1x1024.Iotas .tc 32 [1]
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .f32 = 32 ∨ (Rect.block (s := S4096x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S4x4096x4096.size a
  hwx0_2 : ∀ i : grid0.Coords, EltTy.bits .f32 = 32 ∨ (Rect.block (s := S4x4096x4096) S1x2048x512.size (cc0_transform_2 i) (hinb0_2 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4x4096x4096 : Shape := ⟨3, ![4, 4096, 4096]⟩
abbrev S4096x1024 : Shape := ⟨2, ![4096, 1024]⟩
abbrev S1 : Shape := ⟨1, ![1]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4x4096x4096, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S_, .i32⟩
  | .hbm, ⟨8, _⟩ => ⟨S1, .i32⟩
  | .hbm, ⟨9, _⟩ => ⟨S4x4096x4096, .f32⟩
  | .hbm, ⟨10, _⟩ => ⟨S4096x1024, .f32⟩
  | .hbm, ⟨11, _⟩ => ⟨S4096x1024, .f32⟩
  | .hbm, ⟨12, _⟩ => ⟨S4096x4096, .f32⟩
  | .hbm, ⟨13, _⟩ => ⟨S_, .i32⟩
  | .hbm, ⟨14, _⟩ => ⟨S1, .i32⟩
  | .hbm, ⟨15, _⟩ => ⟨S4x4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S_, .i32⟩
  | .hbm, ⟨20, _⟩ => ⟨S1, .i32⟩
  | .hbm, ⟨21, _⟩ => ⟨S4x4096x4096, .f32⟩
  | .hbm, ⟨22, _⟩ => ⟨S4096x512, .f32⟩
  | .hbm, ⟨23, _⟩ => ⟨S4096x512, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .i32⟩
  | .hbm, ⟨29, _⟩ => ⟨S1, .i32⟩
  | .hbm, ⟨30, _⟩ => ⟨S4x4096x4096, .f32⟩
  | .hbm, ⟨31, _⟩ => ⟨S4096x512, .f32⟩
  | .hbm, ⟨32, _⟩ => ⟨S4096x512, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .i32⟩
  | .hbm, ⟨38, _⟩ => ⟨S1, .i32⟩
  | .hbm, ⟨39, _⟩ => ⟨S4x4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  slices_S4096x4096_S4096x1024_0_0 : S4096x4096.Slices ![0, 0] S4096x1024
  bcast_S_S1 : S_.BroadcastsInDim S1 (![] : Fin 0 → Fin S1.rank)
  slices_S4096x4096_S4096x1024_0_1024 : S4096x4096.Slices ![0, 1024] S4096x1024
  slices_S4096x4096_S4096x1024_0_2048 : S4096x4096.Slices ![0, 2048] S4096x1024
  slices_S4096x4096_S4096x512_0_3072 : S4096x4096.Slices ![0, 3072] S4096x512
  bcast_S_S4096x4096 : S_.BroadcastsInDim S4096x4096 (![] : Fin 0 → Fin S4096x4096.rank)
  slices_S4096x4096_S4096x512_0_3584 : S4096x4096.Slices ![0, 3584] S4096x512
  dot_S4096x1024_S4096x1024_S4096x4096_1_1_0_0_n_n_wf : DotDims.WF S4096x1024 S4096x1024 S4096x4096 [1] [1] [0] [0] [] []
  scatter_S4x4096x4096_S1_S4096x4096_01_0_0_0_wf : ScatterDims.WF S4x4096x4096 S1 S4096x4096 [0, 1] [0] [0] 0
  dot_S4096x512_S4096x512_S4096x4096_1_1_0_0_n_n_wf : DotDims.WF S4096x512 S4096x512 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def scatter_S4x4096x4096_S1_S4096x4096_01_0_0_0 : ScatterDims S4x4096x4096 S1 S4096x4096 where
  updateWindowDims := [0, 1]
  insertedWindowDims := [0]
  scatterDimsToOperandDims := [0]
  indexVectorDim := 0
  wf := scatter_S4x4096x4096_S1_S4096x4096_01_0_0_0_wf
def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.FloatWords.lean ====
/-
  The float words the two programs spell, as the extended reals they denote at the ideal instance: `1.0` is `1` and `0.5`
  is the real `1/2` (the zero word is the library's `Ideal.ofBits_zero_f32`). Stated once, here, so that no other module of
  this certificate unfolds the encoding.
-/
import Idealize.ShloMosaic.PureOps.Ideal.Laws

noncomputable section

namespace Cert.FloatWords

open Idealize.ShloMosaic

/-- The word of `1.0` denotes `1`. -/
theorem ofBits_one : Ideal.ofBits .f32 0x3F800000#32 = 1 := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

end Cert.FloatWords

end
-- ==== Proof.SegDot.lean ====
/-
  The mathematics of the certificate, over the extended reals and with no program in sight.

  Both programs compute, for each of four groups `g`, each row `r` of `A` and each row `c` of `B` (both `4096 × 4096`), a
  dot product over the group's own 1024 columns `1024 g … 1024 g + 1023`. The kernel scales `B`'s entry inside the sum —
  by `1`, except in the upper half of the last group's columns, where by `1/2` —; the reference adds whole dot products
  into a zero array — one per group for the first three, and for the last group the lower half's (times `1`) and then the
  upper half's times `1/2`. The two agree entry by entry: `x · 1 = x`, `0 + x = x`, a sum over 1024 columns is the sum of its
  two halves, and the nonnegative real `1/2` goes through a finite sum of extended reals (it does so at `±∞` too, so the
  inputs need not be finite).
-/
import Idealize.ShloMosaic.Lib.ValueIdx
import proofs.«126427_j1949915152858_2_alg».proof.Proof.FloatWords

noncomputable section

open scoped BigOperators

namespace Cert.SegDot

open Idealize.ShloMosaic Idealize.ShloMosaic.ValueIdx

/-- A `4096 × 4096` array of extended reals. -/
abbrev Mat : Type := (⟨2, ![4096, 4096]⟩ : Shape).Idx → EReal

/-! ## A nonnegative real constant through a finite sum -/

/-- On the extended reals a nonnegative real factor distributes over a finite sum, whatever the terms. -/
theorem const_mul_sum {ι : Type} (s : Finset ι) (h : ℝ) (hh : 0 ≤ h) (x : ι → EReal) :
    (h : EReal) * ∑ k ∈ s, x k = ∑ k ∈ s, (h : EReal) * x k := by
  classical
  induction s using Finset.induction_on with
  | empty => simp
  | insert a s ha ih =>
    rw [Finset.sum_insert ha, Finset.sum_insert ha,
      EReal.left_distrib_of_nonneg_of_ne_top (by exact_mod_cast hh) (EReal.coe_ne_top h), ih]

/-! ## Dot products over a run of columns -/

/-- Row `r` of `A` against row `c` of `B` over the `n` columns from `off` on. -/
def dotAt (A B : Mat) (r c : Fin 4096) (off n : ℕ) (h : off + n ≤ 4096) : EReal :=
  ∑ k : Fin n, A (ix2 r ⟨off + k.val, by have := k.isLt; omega⟩) * B (ix2 c ⟨off + k.val, by have := k.isLt; omega⟩)

/-- The same with `B`'s entry at column `off + k` scaled by `s k` inside the sum. -/
def sdotAt (A B : Mat) (r c : Fin 4096) (off n : ℕ) (h : off + n ≤ 4096) (s : Fin n → EReal) : EReal :=
  ∑ k : Fin n, A (ix2 r ⟨off + k.val, by have := k.isLt; omega⟩) * (B (ix2 c ⟨off + k.val, by have := k.isLt; omega⟩) * s k)

/-- The first column may be spelt in any way. -/
theorem dotAt_congr (A B : Mat) (r c : Fin 4096) {off off' : ℕ} (e : off = off') (n : ℕ) (h : off + n ≤ 4096) :
    dotAt A B r c off n h = dotAt A B r c off' n (e ▸ h) := by
  subst e; rfl
theorem sdotAt_congr (A B : Mat) (r c : Fin 4096) {off off' : ℕ} (e : off = off') (n : ℕ) (h : off + n ≤ 4096)
    (s : Fin n → EReal) : sdotAt A B r c off n h s = sdotAt A B r c off' n (e ▸ h) s := by
  subst e; rfl

/-- Scaled by `1` throughout, and added to `0`: the plain dot product. -/
theorem sdotAt_one (A B : Mat) (r c : Fin 4096) (off n : ℕ) (h : off + n ≤ 4096) (s : Fin n → EReal) (hs : ∀ k, s k = 1) :
    sdotAt A B r c off n h s = 0 + dotAt A B r c off n h := by
  unfold sdotAt dotAt
  rw [zero_add]
  exact Finset.sum_congr rfl fun k _ => by rw [hs k, mul_one]

/-- Scaled by `1` on the lower 512 columns and by `1/2` on the upper 512: the lower half's dot product (times `1`, added
    to `0`) plus `1/2` times the upper half's. -/
theorem sdotAt_halves (A B : Mat) (r c : Fin 4096) (off : ℕ) (h : off + 1024 ≤ 4096) (s : Fin 1024 → EReal)
    (hlo : ∀ k : Fin 1024, k.val < 512 → s k = 1) (hhi : ∀ k : Fin 1024, 512 ≤ k.val → s k = ((1 / 2 : ℝ) : EReal)) :
    sdotAt A B r c off 1024 h s
      = (0 + 1 * dotAt A B r c off 512 (by omega)) + ((1 / 2 : ℝ) : EReal) * dotAt A B r c (off + 512) 512 (by omega) := by
  unfold sdotAt dotAt
  refine (Fin.sum_univ_add (M := EReal) (a := 512) (b := 512) (fun k : Fin (512 + 512) =>
    A (ix2 r ⟨off + k.val, by have := k.isLt; omega⟩) * (B (ix2 c ⟨off + k.val, by have := k.isLt; omega⟩) * s k))).trans ?_
  congr 1
  · rw [zero_add, one_mul]
    refine Finset.sum_congr rfl fun k _ => ?_
    rw [hlo (Fin.castAdd 512 k) (by simp), mul_one]
    rfl
  · rw [const_mul_sum _ _ (by norm_num)]
    refine Finset.sum_congr rfl fun k _ => ?_
    rw [hhi (Fin.natAdd 512 k) (by simp), ← mul_assoc, mul_comm]
    have e : off + (Fin.natAdd 512 k).val = off + 512 + k.val := by simp [Fin.natAdd]; omega
    congr 3 <;> exact congrArg _ (Fin.ext e)

/-! ## The result, and the reference's way to it -/

/-- The scale the kernel applies to column `k` of group `g`'s columns, in the programs' own float words: `0.5` on the
    upper half of the last group's, `1.0` elsewhere. -/
def scale (g : Fin 4) (k : Fin 1024) : EReal :=
  if g = 3 then (if 512 ≤ k.val then Ideal.ofBits .f32 0x3F000000#32 else Ideal.ofBits .f32 0x3F800000#32)
  else Ideal.ofBits .f32 0x3F800000#32

/-- ENTRY `(g, r, c)` OF THE RESULT: row `r` of `A` against row `c` of `B` over group `g`'s columns, `B`'s entries scaled. -/
def entry (A B : Mat) (g : Fin 4) (r c : Fin 4096) : EReal :=
  sdotAt A B r c (1024 * g.val) 1024 (by have := g.isLt; omega) (scale g)

/-- THE RESULT, a `4 × 4096 × 4096` array. -/
def result (A B : Mat) : (⟨3, ![4, 4096, 4096]⟩ : Shape).Idx → EReal := fun i => entry A B (i 0) (i 1) (i 2)

/-- The reference's array after each of its five accumulating steps, at entry `(g, r, c)`: it starts from the zero word
    everywhere and adds group 0's dot product into slab 0, … -/
def acc0 (A B : Mat) (g : Fin 4) (r c : Fin 4096) : EReal :=
  if g = 0 then Ideal.ofBits .f32 0x00000000#32 + dotAt A B r c 0 1024 (by omega) else Ideal.ofBits .f32 0x00000000#32
/-- … group 1's into slab 1, … -/
def acc1 (A B : Mat) (g : Fin 4) (r c : Fin 4096) : EReal :=
  if g = 1 then acc0 A B g r c + dotAt A B r c 1024 1024 (by omega) else acc0 A B g r c
/-- … group 2's into slab 2, … -/
def acc2 (A B : Mat) (g : Fin 4) (r c : Fin 4096) : EReal :=
  if g = 2 then acc1 A B g r c + dotAt A B r c 2048 1024 (by omega) else acc1 A B g r c
/-- … `1.0` times the dot product over columns 3072 … 3583 into slab 3, … -/
def acc3 (A B : Mat) (g : Fin 4) (r c : Fin 4096) : EReal :=
  if g = 3 then acc2 A B g r c + Ideal.ofBits .f32 0x3F800000#32 * dotAt A B r c 3072 512 (by omega) else acc2 A B g r c
/-- … and `0.5` times the one over columns 3584 … 4095 into slab 3 again. -/
def acc4 (A B : Mat) (g : Fin 4) (r c : Fin 4096) : EReal :=
  if g = 3 then acc3 A B g r c + Ideal.ofBits .f32 0x3F000000#32 * dotAt A B r c 3584 512 (by omega) else acc3 A B g r c

/-- A group is one of the four. -/
theorem group_cases (g : Fin 4) : g = 0 ∨ g = 1 ∨ g = 2 ∨ g = 3 := by revert g; decide

/-- Off the last group every column is scaled by `1`. -/
theorem scale_plain (g : Fin 4) (hg : g ≠ 3) (k : Fin 1024) : scale g k = 1 := by
  unfold scale; rw [if_neg hg]; exact FloatWords.ofBits_one
/-- In the last group the lower half is scaled by `1` … -/
theorem scale_last_lo (k : Fin 1024) (hk : k.val < 512) : scale 3 k = 1 := by
  unfold scale; rw [if_pos rfl, if_neg (by omega)]; exact FloatWords.ofBits_one
/-- … and the upper half by `1/2`. -/
theorem scale_last_hi (k : Fin 1024) (hk : 512 ≤ k.val) : scale 3 k = ((1 / 2 : ℝ) : EReal) := by
  unfold scale; rw [if_pos rfl, if_pos hk]; exact FloatWords.ofBits_half

/-- THE LAW: what the reference accumulates is the result, entry by entry. -/
theorem acc4_eq_entry (A B : Mat) (g : Fin 4) (r c : Fin 4096) : acc4 A B g r c = entry A B g r c := by
  rcases group_cases g with rfl | rfl | rfl | rfl
  · simp only [acc4, acc3, acc2, acc1, acc0, Fin.reduceEq, ↓reduceIte]
    unfold entry
    rw [sdotAt_one A B r c _ 1024 _ (scale 0) (scale_plain 0 (by decide)), Ideal.ofBits_zero_f32]
    rfl
  · simp only [acc4, acc3, acc2, acc1, acc0, Fin.reduceEq, ↓reduceIte]
    unfold entry
    rw [sdotAt_one A B r c _ 1024 _ (scale 1) (scale_plain 1 (by decide)), Ideal.ofBits_zero_f32]
    rfl
  · simp only [acc4, acc3, acc2, acc1, acc0, Fin.reduceEq, ↓reduceIte]
    unfold entry
    rw [sdotAt_one A B r c _ 1024 _ (scale 2) (scale_plain 2 (by decide)), Ideal.ofBits_zero_f32]
    rfl
  · simp only [acc4, acc3, acc2, acc1, acc0, Fin.reduceEq, ↓reduceIte]
    unfold entry
    rw [sdotAt_halves A B r c _ _ (scale 3) scale_last_lo scale_last_hi, Ideal.ofBits_zero_f32,
      FloatWords.ofBits_one, FloatWords.ofBits_half]
    rfl

end Cert.SegDot

end
-- ==== Proof.BodyValue.lean ====
/-
  The kernel's body at one grid point, entry by entry.

  At grid point `(g, ·, ·)` the body loads a `2048 × 1024` block `x0` of `A` and a `512 × 1024` block `x1` of `B`, builds a
  row of 1024 scales — `0.5` where the column is at least 512 and `g = 3`, `1.0` otherwise —, multiplies every row of `x1`
  by it, and stores the product of `x0` with the transpose of the scaled `x1`, accumulated from zero, as a
  `1 × 2048 × 512` block. Entry `(0, p, q)` of what it stores is therefore
      ∑ k < 1024,  x0 (p, k) · (x1 (q, k) · scale g k)
  (the two roundings to bf16 are the identity on extended reals).
-/
import proofs.«126427_j1949915152858_2_alg».proof.Proof.Gen.KernelIdeal.Skeleton
import proofs.«126427_j1949915152858_2_alg».proof.Proof.SegDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.SegDot

/-! ## The row of scales -/

/-- The row of scales the body builds at a grid point of group `g`, as printed. -/
def scaleRow (g : Fin 4) : FVec Ideal S1x1024 .f32 :=
  Scalar.select (Scalar.cmpi .eq (BitVec.ofNat 32 g.val) 3#32)
    (select (cmpi .sge (iota .tc S1x1024 32 [1] Facts₀.iota_S1x1024_d1_w32) (broadcast S1x1024 512#32))
      (broadcast S1x1024 (Scalar.ofBits .f32 0x3F000000#32)) (broadcast S1x1024 (Scalar.ofBits .f32 0x3F800000#32)))
    (broadcast S1x1024 (Scalar.ofBits .f32 0x3F800000#32))

/-- "The group is the last one", as the body tests it on the grid coordinate's 32-bit word. -/
theorem last_group_bit (g : Fin 4) : Scalar.cmpi .eq (BitVec.ofNat 32 g.val) 3#32 = if g = 3 then 1#1 else 0#1 := by
  rcases group_cases g with rfl | rfl | rfl | rfl <;> rfl

/-- "The column is in the upper half", as the body tests it on the column's 32-bit word. -/
theorem upper_half_bit : ∀ k : Fin 1024, IntOp.cmpi .sge (BitVec.ofNat 32 k.val) 512#32 = if 512 ≤ k.val then 1#1 else 0#1 := by
  decide +kernel

/-- The row's entry at column `k` is `SegDot.scale` of the group and the column. -/
theorem scaleRow_apply (g : Fin 4) (z : Fin 1) (k : Fin 1024) : scaleRow g (ix2 z k) = scale g k := by
  unfold scaleRow scale
  rw [last_group_bit]
  by_cases hg : g = 3
  · rw [if_pos hg, if_pos hg, select_one, select_apply]
    show Scalar.select (IntOp.cmpi .sge (iota .tc S1x1024 32 [1] Facts₀.iota_S1x1024_d1_w32 (ix2 z k)) 512#32) _ _ = _
    rw [iota_single_apply]
    show Scalar.select (IntOp.cmpi .sge (BitVec.ofNat 32 k.val) 512#32) _ _ = _
    rw [upper_half_bit k]
    by_cases hk : 512 ≤ k.val
    · rw [if_pos hk, if_pos hk, select_one]; rfl
    · rw [if_neg hk, if_neg hk, select_zero]; rfl
  · rw [if_neg hg, if_neg hg, select_zero]; rfl

/-! ## The matrix product, and the block's leading unit axis -/

/-- The stored block's entry `(0, p, q)` is the `2048 × 512` product's entry `(p, q)`. -/
theorem unit_axis_apply (v : FVec Ideal S2048x512 .f32) (z : Fin 1) (p : Fin 2048) (q : Fin 512) :
    shapeCast S1x2048x512 v Facts₀.shapeCasts_S2048x512_S1x2048x512 (ix3 z p q) = v (ix2 p q) :=
  (shapeCast_addUnit_apply ![2048, 512] v Facts₀.shapeCasts_S2048x512_S1x2048x512 (ix3 z p q)).trans
    (congrArg v (funext fun a => by
      match a with
      | ⟨0, _⟩ => rfl
      | ⟨1, _⟩ => rfl))

local notation "D" => dot_S2048x1024_S512x1024_S2048x512_1_1_0_0_n_n

theorem lhs_row (j : S2048x512.Idx) (u : (D).contr.Idx) : ((D).lhsIdx j u 0).val = (j 0).val := by
  unfold DotDims.lhsIdx
  rw [dif_neg (show ¬(0 : Fin S2048x1024.rank) ∈ (D).lhsBatch by decide), dif_pos (show (0 : Fin S2048x1024.rank) ∈ (D).lhsNonContracting by decide)]
  rfl
theorem lhs_col (j : S2048x512.Idx) (u : (D).contr.Idx) : ((D).lhsIdx j u 1).val = (u ⟨0, by decide⟩).val :=
  (D).lhsIdx_val_of_single rfl j u
theorem rhs_row (j : S2048x512.Idx) (u : (D).contr.Idx) : ((D).rhsIdx j u 0).val = (j 1).val := by
  unfold DotDims.rhsIdx
  rw [dif_neg (show ¬(0 : Fin S512x1024.rank) ∈ (D).rhsBatch by decide), dif_pos (show (0 : Fin S512x1024.rank) ∈ (D).rhsNonContracting by decide)]
  rfl
theorem rhs_col (j : S2048x512.Idx) (u : (D).contr.Idx) : ((D).rhsIdx j u 1).val = (u ⟨0, by decide⟩).val :=
  (D).rhsIdx_val_of_single rfl j u

/-- The product accumulated from zero, at `(p, q)`: row `p` of the left operand against row `q` of the right one. -/
theorem product_apply (l : FVec Ideal S2048x1024 .bf16) (r : FVec Ideal S512x1024 .bf16) (p : Fin 2048) (q : Fin 512) :
    matmul (D) none l r (constant S2048x512 .f32 0x00000000#32) (ix2 p q) = ∑ k : Fin 1024, l (ix2 p k) * r (ix2 q k) := by
  show FloatOps.matmul (D) none l r (constant S2048x512 .f32 0x00000000#32) (ix2 p q) = _
  rw [Ideal.matmul_constant_zero_apply, ← Equiv.sum_comp (contrEquiv1 (D) 1024 rfl rfl).symm]
  refine Finset.sum_congr rfl fun k _ => ?_
  have hk := contrEquiv1_symm_val (D) 1024 rfl rfl k
  have el : (D).lhsIdx (ix2 p q) ((contrEquiv1 (D) 1024 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 (D) 1024 rfl rfl).symm k) = ix2 q k := funext fun a => Fin.ext (by
    match a with
    | ⟨0, _⟩ => exact rhs_row _ _
    | ⟨1, _⟩ => exact (rhs_col _ _).trans hk)
  rw [el, er]

/-- A row broadcast down the 512 rows reads, at `(q, k)`, the row's entry `k`. -/
theorem row_down_apply (v : FVec Ideal S1x1024 .f32) (q : Fin 512) (k : Fin 1024) :
    broadcastTo S512x1024 v Facts₀.broadcasts_S1x1024_S512x1024 (ix2 q k) = v (ix2 (0 : Fin 1) k) :=
  broadcastTo_apply v Facts₀.broadcasts_S1x1024_S512x1024 (ix2 q k) (ix2 (0 : Fin 1) k) (fun a => by
    match a with
    | ⟨0, _⟩ => exact (if_pos rfl).symm
    | ⟨1, _⟩ => exact (if_neg (show ¬(1024 : ℕ) = 1 by decide)).symm)

/-! ## What the body stores -/

/-- The stored value is the printed tree over the row of scales. -/
theorem stored_eq (i : grid0.Coords) (x0 : Vec Ideal S2048x1024 .f32) (x1 : Vec Ideal S512x1024 .f32) :
    k0_pay1 (F := Ideal) i x0 x1
      = shapeCast S1x2048x512
          (matmul (D) none (truncf .bf16 x0 Facts₀.bitsLt_bf16_f32)
            (truncf .bf16 (mulf x1 (broadcastTo S512x1024 (scaleRow (i 0)) Facts₀.broadcasts_S1x1024_S512x1024)) Facts₀.bitsLt_bf16_f32)
            (constant S2048x512 .f32 0x00000000#32))
          Facts₀.shapeCasts_S2048x512_S1x2048x512 := rfl

/-- ENTRY `(0, p, q)` OF WHAT THE BODY STORES at grid point `i`. -/
theorem stored_apply (i : grid0.Coords) (x0 : Vec Ideal S2048x1024 .f32) (x1 : Vec Ideal S512x1024 .f32)
    (z : Fin 1) (p : Fin 2048) (q : Fin 512) :
    k0_pay1 (F := Ideal) i x0 x1 (ix3 z p q) = ∑ k : Fin 1024, x0 (ix2 p k) * (x1 (ix2 q k) * scale (i 0) k) := by
  rw [stored_eq, unit_axis_apply, product_apply]
  refine Finset.sum_congr rfl fun k _ => ?_
  show x0 (ix2 p k) * (x1 (ix2 q k) * broadcastTo S512x1024 (scaleRow (i 0)) Facts₀.broadcasts_S1x1024_S512x1024 (ix2 q k)) = _
  rw [row_down_apply]
  exact congrArg (fun s => x0 (ix2 p k) * (x1 (ix2 q k) * s)) (scaleRow_apply (i 0) 0 k)

end Cert.KernelIdeal.Body

end
-- ==== Proof.ArrayValue.lean ====
/-
  The kernel's result array.

  The grid is `4 × 2 × 8`: point `(g, I, J)` reads rows `2048 I …` of `A` and rows `512 J …` of `B`, both at columns
  `1024 g …`, and writes the `2048 × 512` block at `(I, J)` of slab `g` of the output. Entry `(0, p, q)` of what it writes is
  the body's sum (`Body.stored_apply`) over those blocks, which is entry `(g, 2048 I + p, 512 J + q)` of `SegDot.result` of
  the two argument arrays; the 64 blocks tile the output, so after the run the output array is `SegDot.result`.
-/
import proofs.«126427_j1949915152858_2_alg».proof.Proof.KernelIdealFrame
import proofs.«126427_j1949915152858_2_alg».proof.Proof.BodyValue
import Idealize.ShloMosaic.Lib.Pipeline.Value

noncomputable section

open scoped BigOperators

namespace Cert.KernelIdeal.ArrayValue

open Cert.KernelIdeal Cert.KernelIdeal.Gen Cert.KernelIdeal.GenP Idealize.ShloMosaic Idealize.ShloMosaic.TcCoe Idealize.SL.Sem
open Idealize.ShloMosaic.ValueIdx Cert.SegDot
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the block of `A` is at (the output's row block, the group),
    the block of `B` at (the output's column block, the group), the group is the grid's first coordinate, and the output's
    block indices stay in their ranges. -/
theorem idx_facts : ∀ t : Fin cfg0.N,
    win0_0.index t (0 : Fin 2) = win0_2.index t (1 : Fin 3)
    ∧ win0_0.index t (1 : Fin 2) = win0_2.index t (0 : Fin 3)
    ∧ win0_1.index t (0 : Fin 2) = win0_2.index t (2 : Fin 3)
    ∧ win0_1.index t (1 : Fin 2) = win0_2.index t (0 : Fin 3)
    ∧ (grid0.coords t 0).val = win0_2.index t (0 : Fin 3)
    ∧ win0_2.index t (0 : Fin 3) < 4 ∧ win0_2.index t (1 : Fin 3) < 2 ∧ win0_2.index t (2 : Fin 3) < 8 :=
  (by decide +kernel : ∀ t : Fin grid0.N, _)

/-- Every block of the output is some point's. -/
theorem idx_onto : ∀ (q0 : Fin 4) (q1 : Fin 2) (q2 : Fin 8), ∃ t : Fin cfg0.N, win0_2.index t = ![q0.val, q1.val, q2.val] :=
  (by decide +kernel : ∀ (q0 : Fin 4) (q1 : Fin 2) (q2 : Fin 8), ∃ t : Fin grid0.N, win0_2.index t = ![q0.val, q1.val, q2.val])

/-- ONE POINT, over variables: if `x0` is the block of `A` at row block `I` and `x1` the block of `B` at row block `J`, both
    at group `g`'s columns, then entry `y` of what the body stores at a point of group `g` is `SegDot.result`'s entry at
    `(g, 2048 I + y 1, 512 J + y 2)`. -/
theorem point_eq (A B : Mat) (i : grid0.Coords) (x0 : Vec Ideal S2048x1024 .f32) (x1 : Vec Ideal S512x1024 .f32)
    (g I J : ℕ) (hg : g < 4) (hI : I < 2) (hJ : J < 8) (hi : (i 0).val = g)
    (h0 : ∀ (p : Fin 2048) (k : Fin 1024), x0 (ix2 p k) = A (ix2 ⟨I * 2048 + p.val, by omega⟩ ⟨1024 * g + k.val, by omega⟩))
    (h1 : ∀ (q : Fin 512) (k : Fin 1024), x1 (ix2 q k) = B (ix2 ⟨J * 512 + q.val, by omega⟩ ⟨1024 * g + k.val, by omega⟩))
    (y : S1x2048x512.Idx) (e : S4x4096x4096.Idx)
    (he0 : (e 0).val = g) (he1 : (e 1).val = I * 2048 + (y 1).val) (he2 : (e 2).val = J * 512 + (y 2).val) :
    k0_pay1 (F := Ideal) i x0 x1 y = result A B e := by
  obtain ⟨z, p, q, rfl⟩ : ∃ (z : Fin 1) (p : Fin 2048) (q : Fin 512), y = ix3 z p q := ⟨y 0, y 1, y 2, eq_ix3 y⟩
  rw [Body.stored_apply]
  unfold result entry sdotAt
  have hge : (i 0 : Fin 4) = e 0 := Fin.ext (hi.trans he0.symm)
  refine Finset.sum_congr rfl fun k _ => ?_
  rw [h0 p k, h1 q k, hge]
  refine congrArg₂ (· * ·) (congrArg A (funext fun a => ?_)) (congrArg₂ (· * ·) (congrArg B (funext fun a => ?_)) rfl) <;>
    (match a with
      | ⟨0, _⟩ => exact Fin.ext (by first | exact he1.symm | exact he2.symm)
      | ⟨1, _⟩ => exact Fin.ext (by show 1024 * g + k.val = 1024 * (e 0).val + k.val; rw [he0]))

/-- WHAT POINT `t` WRITES BACK is block `t` of `SegDot.result` of the argument arrays as the region finds them. -/
theorem flushed_eq (c : Dev nD) (t : Fin cfg0.N) :
    (dats m 0 c).flushed 2 t
      = ((cfg0.win 2).blk t).view.read (Elt Ideal) (result (V m c main_arg0) (V m c main_arg1)) := by
  show (cfg0.win 2).cut (grid0.coords t) ((dats m 0 c).after 2 t) = _
  rw [after0_2]
  unfold out0_2
  rw [View.canon_unit_zero hz3]
  simp only [View.ld_unit_zero (S := S2048x1024) hz2, View.ld_unit_zero (S := S512x1024) hz2]
  obtain ⟨e0, e1, e2, e3, e4, b0, b1, b2⟩ := idx_facts t
  funext j
  show k0_pay1 (F := Ideal) (grid0.coords t) (iblk m c 0 t) (iblk m c 1 t) j
    = result (V m c main_arg0) (V m c main_arg1) (((cfg0.win 2).blk t).view.emb j)
  refine point_eq (V m c main_arg0) (V m c main_arg1) (grid0.coords t) (iblk m c 0 t) (iblk m c 1 t)
    (win0_2.index t (0 : Fin 3)) (win0_2.index t (1 : Fin 3)) (win0_2.index t (2 : Fin 3)) b0 b1 b2 e4 ?_ ?_ j _ ?_ ?_ ?_
  · intro p k
    show V m c main_arg0 (((cfg0.win 0).blk t).view.emb (ix2 p k)) = _
    refine congrArg (V m c main_arg0) (funext fun a => Fin.ext ?_)
    match a with
    | ⟨0, _⟩ => show win0_0.index t (0 : Fin 2) * 2048 + 1 * p.val = win0_2.index t (1 : Fin 3) * 2048 + p.val; omega
    | ⟨1, _⟩ => show win0_0.index t (1 : Fin 2) * 1024 + 1 * k.val = 1024 * win0_2.index t (0 : Fin 3) + k.val; omega
  · intro q k
    show V m c main_arg1 (((cfg0.win 1).blk t).view.emb (ix2 q k)) = _
    refine congrArg (V m c main_arg1) (funext fun a => Fin.ext ?_)
    match a with
    | ⟨0, _⟩ => show win0_1.index t (0 : Fin 2) * 512 + 1 * q.val = win0_2.index t (2 : Fin 3) * 512 + q.val; omega
    | ⟨1, _⟩ => show win0_1.index t (1 : Fin 2) * 1024 + 1 * k.val = 1024 * win0_2.index t (0 : Fin 3) + k.val; omega
  · show win0_2.index t (0 : Fin 3) * 1 + 1 * (j 0).val = win0_2.index t (0 : Fin 3)
    have hj : (j 0).val < 1 := (j 0).isLt
    omega
  · show win0_2.index t (1 : Fin 3) * 2048 + 1 * (j 1).val = win0_2.index t (1 : Fin 3) * 2048 + (j 1).val
    omega
  · show win0_2.index t (2 : Fin 3) * 512 + 1 * (j 2).val = win0_2.index t (2 : Fin 3) * 512 + (j 2).val
    omega

/-- An index of the output is in point `t`'s block iff each coordinate is in the block's range on its axis. -/
theorem mem_blk (t : Fin cfg0.N) (i : S4x4096x4096.Idx) :
    i ∈ ((cfg0.win 2).blk t).view.set ↔ ∀ a : Fin 3, win0_2.index t a * S1x2048x512.size a ≤ (i a).val
      ∧ (i a).val < win0_2.index t a * S1x2048x512.size a + S1x2048x512.size a := by
  show i ∈ ((View.whole main_v0).slice (win0_2.rect t)).set ↔ _
  rw [View.set_slice_whole, Rect.mem_set_unit]
  exact Iff.rfl

/-- THE COVER: entry `(g, r, c)` of the output is in the block of the point at `(g, r / 2048, c / 512)`. -/
theorem cover (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 2048, by omega⟩ ⟨(i 2).val / 512, by omega⟩
  have q0 : win0_2.index t (0 : Fin 3) = (i 0).val := congrFun ht 0
  have q1 : win0_2.index t (1 : Fin 3) = (i 1).val / 2048 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

/-- THE OUTPUT ARRAY after the run is `SegDot.result` of the two argument arrays. -/
theorem final (c : Dev nD) :
    (dats m 0 c).arrAt 2 cfg0.N = result (V m c main_arg0) (V m c main_arg1) :=
  (dats m 0 c).arrAt_eq_of_cover 2 _ (fun t _ => flushed_eq m c t) cover

/-! ## The run, read -/

/-- After the frame run the output array is the one the proof data computes … -/
theorem post_out (r : PUnit × MemSt nD τ sig (Elt Ideal)) (h : Pipeline.FramePost cfgs (dats m) 0 (V m) r) (c : Dev nD) :
    r.2.mem ((c : Thread nD τ).loc main_v0) = (dats m 0 c).arrAt 2 cfg0.N :=
  (h c).1 2
/-- … and each argument array is as launched: its window stages it and never writes it back. -/
theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- THE KERNEL'S RUN at the ideal instance: every weakly fair execution terminates with the output array at
    `SegDot.result` of the argument arrays, and the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post_out m r h c).trans (final m c), kept_arg0 m r h c, kept_arg1 m r h c⟩)
    (run_main m ρ)

end Cert.KernelIdeal.ArrayValue

end
-- ==== Proof.LibScatterSlab.lean ====
/-
  A `stablehlo.scatter` of ONE whole slab, read at an index.

  What `x.at[g].add(u)` (or `.set`, `.mul`, … : any combiner `f`) of an operand `x : [G, R, C]` at one scalar position `g`
  with an update `u : [R, C]` lowers to: scatter indices of shape `[1]` holding `g`, update window axes `[0, 1]`, the
  operand's axis `0` inserted, scatter-dims-to-operand-dims `[0]`, index vector axis `0`. Update element `(r, c)` lands at
  operand index `(g, r, c)`; distinct update elements land at distinct operand indices, so every element of the result meets
  at most one update, whatever the order the updates are applied in:

      scatter x [g] u (a, r, c) = f (x (g, r, c)) (u (r, c))   when a = g,        = x (a, r, c)   otherwise.

  The first section is the general fact behind it: a left fold of steps that each rewrite at most one point, the points
  pairwise distinct, read at a point.
-/
import Idealize.ShloMosaic.Lib.ValueIdx

noncomputable section

namespace ScatterSlab

open Idealize.ShloMosaic Idealize.ShloMosaic.ValueIdx

/-! ## A fold of one-point rewrites, read at a point -/

section Fold
variable {ι I α : Type} (tgt : ι → Option I) (step : (I → α) → ι → (I → α)) (g : α → ι → α)

/-- A point no step of the list rewrites keeps its value. `tgt n` is the point step `n` rewrites, if any. -/
theorem foldl_untouched
    (hmiss : ∀ r n i j, tgt n = some i → j ≠ i → step r n j = r j)
    (hnone : ∀ r n, tgt n = none → step r n = r)
    (L : List ι) (x : I → α) (i' : I) (h : ∀ n ∈ L, tgt n ≠ some i') :
    L.foldl step x i' = x i' := by
  induction L generalizing x with
  | nil => rfl
  | cons a L ih =>
    rw [List.foldl_cons, ih _ (fun n hn => h n (List.mem_cons_of_mem _ hn))]
    cases ht : tgt a with
    | none => rw [hnone _ _ ht]
    | some i =>
      refine hmiss _ _ _ _ ht ?_
      rintro rfl
      exact h a (List.mem_cons.2 (Or.inl rfl)) ht

/-- A point that step `n₀` of a duplicate-free list rewrites, no two steps rewriting one point, ends at that step's
    value of what it held at the start. -/
theorem foldl_touched
    (hhit : ∀ r n i, tgt n = some i → step r n i = g (r i) n)
    (hmiss : ∀ r n i j, tgt n = some i → j ≠ i → step r n j = r j)
    (hnone : ∀ r n, tgt n = none → step r n = r)
    (hinj : ∀ n n' i, tgt n = some i → tgt n' = some i → n = n')
    (L : List ι) (hL : L.Nodup) (x : I → α) (i' : I) (n₀ : ι) (hn₀ : n₀ ∈ L) (ht₀ : tgt n₀ = some i') :
    L.foldl step x i' = g (x i') n₀ := by
  induction L generalizing x with
  | nil => exact absurd hn₀ (List.not_mem_nil)
  | cons a L ih =>
    rw [List.foldl_cons]
    have hnd := List.nodup_cons.1 hL
    rcases List.mem_cons.1 hn₀ with hEq | hmem
    · subst hEq
      rw [foldl_untouched tgt step hmiss hnone L _ i' (fun n hn hc => hnd.1 (by rw [hinj _ _ _ ht₀ hc]; exact hn))]
      exact hhit _ _ _ ht₀
    · have hne : tgt a ≠ some i' := fun hc => hnd.1 (by rw [hinj _ _ _ hc ht₀]; exact hmem)
      rw [ih hnd.2 _ hmem]
      cases ht : tgt a with
      | none => rw [hnone _ _ ht]
      | some i =>
        rw [hmiss _ _ _ _ ht ?_]
        rintro rfl
        exact hne ht

end Fold

/-! ## The slab scatter's dimension numbers, and where an update element lands -/

section Slab
variable {α : Type} {w : Nat}

/-- The dimension numbers of a scatter of one `[R, C]` slab into a `[G, R, C]` operand at one scalar position; their
    conditions `wf` are decided on a program's literal shapes. -/
abbrev slabDims (G R C : Nat) (wf : ScatterDims.WF ⟨3, ![G, R, C]⟩ ⟨1, ![1]⟩ ⟨2, ![R, C]⟩ [0, 1] [0] [0] 0) :
    ScatterDims ⟨3, ![G, R, C]⟩ ⟨1, ![1]⟩ ⟨2, ![R, C]⟩ where
  updateWindowDims := [0, 1]
  insertedWindowDims := [0]
  scatterDimsToOperandDims := [0]
  indexVectorDim := 0
  wf := wf

variable {G R C : Nat} (wf : ScatterDims.WF ⟨3, ![G, R, C]⟩ ⟨1, ![1]⟩ ⟨2, ![R, C]⟩ [0, 1] [0] [0] 0)

/-- On the operand's slab axis the window starts at the position the scatter indices hold, read signed. -/
theorem start_slab (j : (⟨2, ![R, C]⟩ : Shape).Idx) (idx : IVec ⟨1, ![1]⟩ w) :
    (slabDims G R C wf).start j idx 0 = (idx (ix1 0)).toInt := by
  unfold ScatterDims.start
  rw [dif_pos (show (0 : Fin 3) ∈ (slabDims G R C wf).scatterDimsToOperandDims from List.mem_singleton.mpr rfl)]
  congr 2
  funext b
  match b with
  | ⟨0, _⟩ => rfl

/-- On the two window axes it starts at `0`. -/
theorem start_row (j : (⟨2, ![R, C]⟩ : Shape).Idx) (idx : IVec ⟨1, ![1]⟩ w) :
    (slabDims G R C wf).start j idx 1 = 0 := by
  unfold ScatterDims.start
  rw [dif_neg (show (1 : Fin 3) ∉ ([0] : List (Fin 3)) by decide)]
theorem start_col (j : (⟨2, ![R, C]⟩ : Shape).Idx) (idx : IVec ⟨1, ![1]⟩ w) :
    (slabDims G R C wf).start j idx 2 = 0 := by
  unfold ScatterDims.start
  rw [dif_neg (show (2 : Fin 3) ∉ ([0] : List (Fin 3)) by decide)]

/-- The window coordinate is `0` on the inserted slab axis and the update's own coordinates on the other two. -/
theorem window_slab (j : (⟨2, ![R, C]⟩ : Shape).Idx) : (slabDims G R C wf).window j 0 = 0 := by
  unfold ScatterDims.window
  have h : (0 : Fin 3) ∉ (slabDims G R C wf).sKept := (show (0 : Fin 3) ∉ ((List.finRange 3).filter (· ∉ ([0] : List (Fin 3)))) by decide)
  rw [dif_neg h]
theorem window_row (j : (⟨2, ![R, C]⟩ : Shape).Idx) : (slabDims G R C wf).window j 1 = (j 0).val := by
  unfold ScatterDims.window
  have h : (1 : Fin 3) ∈ (slabDims G R C wf).sKept := (show (1 : Fin 3) ∈ ((List.finRange 3).filter (· ∉ ([0] : List (Fin 3)))) by decide)
  rw [dif_pos h]
  rfl
theorem window_col (j : (⟨2, ![R, C]⟩ : Shape).Idx) : (slabDims G R C wf).window j 2 = (j 1).val := by
  unfold ScatterDims.window
  have h : (2 : Fin 3) ∈ (slabDims G R C wf).sKept := (show (2 : Fin 3) ∈ ((List.finRange 3).filter (· ∉ ([0] : List (Fin 3)))) by decide)
  rw [dif_pos h]
  rfl

/-- Start plus window coordinate on each operand axis, with the scatter indices holding a position `g`: the coordinates
    of `(g, j 0, j 1)`. -/
theorem land_slab (j : (⟨2, ![R, C]⟩ : Shape).Idx) (idx : IVec ⟨1, ![1]⟩ w) (g : Fin G)
    (hg : (idx (ix1 0)).toInt = (g.val : Int)) (a : Fin 3) :
    (slabDims G R C wf).start j idx a + ((slabDims G R C wf).window j a : Int) = ((ix3 g (j 0) (j 1) a).val : Int) := by
  have h0 : (slabDims G R C wf).start j idx 0 + ((slabDims G R C wf).window j 0 : Int) = (g.val : Int) := by
    rw [start_slab, window_slab, hg]; simp
  have h1 : (slabDims G R C wf).start j idx 1 + ((slabDims G R C wf).window j 1 : Int) = ((j 0).val : Int) := by
    rw [start_row, window_row]; simp
  have h2 : (slabDims G R C wf).start j idx 2 + ((slabDims G R C wf).window j 2 : Int) = ((j 1).val : Int) := by
    rw [start_col, window_col]; simp
  match a with
  | ⟨0, _⟩ => exact h0
  | ⟨1, _⟩ => exact h1
  | ⟨2, _⟩ => exact h2

/-- With the scatter indices holding a position `g` inside the operand, update element `j` lands at `(g, j 0, j 1)`. -/
theorem resultIdx_slab (j : (⟨2, ![R, C]⟩ : Shape).Idx) (idx : IVec ⟨1, ![1]⟩ w) (g : Fin G)
    (hg : (idx (ix1 0)).toInt = (g.val : Int)) :
    (slabDims G R C wf).resultIdx? j idx = some (ix3 g (j 0) (j 1)) := by
  unfold ScatterDims.resultIdx?
  have hb : ∀ a, 0 ≤ (slabDims G R C wf).start j idx a + ((slabDims G R C wf).window j a : Int)
      ∧ (slabDims G R C wf).start j idx a + ((slabDims G R C wf).window j a : Int) < ((⟨3, ![G, R, C]⟩ : Shape).size a : Int) := by
    intro a
    rw [land_slab wf j idx g hg a]
    exact ⟨Int.natCast_nonneg _, by exact_mod_cast (ix3 g (j 0) (j 1) a).isLt⟩
  rw [dif_pos hb]
  congr 1
  funext a
  refine Fin.ext ?_
  show ((slabDims G R C wf).start j idx a + ((slabDims G R C wf).window j a : Int)).toNat = _
  rw [land_slab wf j idx g hg a]
  simp

/-- THE SLAB SCATTER READ AT `(a, r, c)`: on the slab the scatter indices name, the combiner applied to the operand's
    element and the update's element `(r, c)`; elsewhere the operand's element. -/
theorem scatter_slab_apply (f : α → α → α) (x : (⟨3, ![G, R, C]⟩ : Shape).Idx → α) (idx : IVec ⟨1, ![1]⟩ w)
    (upd : (⟨2, ![R, C]⟩ : Shape).Idx → α) (g : Fin G) (hg : (idx (ix1 0)).toInt = (g.val : Int))
    (a : Fin G) (r : Fin R) (c : Fin C) :
    Host.scatter (slabDims G R C wf) f x idx upd (ix3 a r c)
      = if a = g then f (x (ix3 a r c)) (upd (ix2 r c)) else x (ix3 a r c) := by
  unfold Host.scatter
  by_cases hag : a = g
  · subst hag
    rw [if_pos rfl]
    refine (foldl_touched
      (fun n => (slabDims G R C wf).resultIdx? ((⟨2, ![R, C]⟩ : Shape).rowMajor.symm n) idx) _
      (fun v n => f v (upd ((⟨2, ![R, C]⟩ : Shape).rowMajor.symm n)))
      ?_ ?_ ?_ ?_ _ (List.nodup_finRange _) x (ix3 a r c)
      ((⟨2, ![R, C]⟩ : Shape).rowMajor (ix2 r c)) (List.mem_finRange _) ?_).trans ?_
    · intro r' n i h
      rw [h]
      exact if_pos rfl
    · intro r' n i j h hne
      rw [h]
      exact if_neg hne
    · intro r' n h
      rw [h]
    · intro n n' i h h'
      rw [resultIdx_slab wf _ idx a hg] at h h'
      have e := (Option.some.inj h).trans (Option.some.inj h').symm
      have e0 : ((⟨2, ![R, C]⟩ : Shape).rowMajor.symm n) 0 = ((⟨2, ![R, C]⟩ : Shape).rowMajor.symm n') 0 := congrFun e 1
      have e1 : ((⟨2, ![R, C]⟩ : Shape).rowMajor.symm n) 1 = ((⟨2, ![R, C]⟩ : Shape).rowMajor.symm n') 1 := congrFun e 2
      refine (⟨2, ![R, C]⟩ : Shape).rowMajor.symm.injective ?_
      rw [eq_ix2 ((⟨2, ![R, C]⟩ : Shape).rowMajor.symm n), eq_ix2 ((⟨2, ![R, C]⟩ : Shape).rowMajor.symm n'), e0, e1]
    · rw [Equiv.symm_apply_apply, resultIdx_slab wf _ idx a hg]
      rfl
    · rw [Equiv.symm_apply_apply]
  · rw [if_neg hag]
    refine foldl_untouched
      (fun n => (slabDims G R C wf).resultIdx? ((⟨2, ![R, C]⟩ : Shape).rowMajor.symm n) idx) _
      ?_ ?_ _ x (ix3 a r c) ?_
    · intro r' n i j h hne
      rw [h]
      exact if_neg hne
    · intro r' n h
      rw [h]
    · intro n _ hc
      rw [resultIdx_slab wf _ idx g hg] at hc
      exact hag (congrFun (Option.some.inj hc) 0).symm

end Slab

end ScatterSlab

end
-- ==== Proof.RefValue.lean ====
/-
  The reference's result, entry by entry.

  The reference builds its `4 × 4096 × 4096` array by five accumulating scatters into a zero array, each adding one
  `4096 × 4096` matrix of dot products into one slab: a scatter of a whole slab changes exactly the entries of that slab,
  each by its own update entry, so entry `(g, r, c)` of each intermediate array is the running total `SegDot.acc0 … acc4`
  — and the last of these is the result's entry (`SegDot.acc4_eq_entry`).
-/
import proofs.«126427_j1949915152858_2_alg».proof.Proof.Gen.ReferenceIdeal.Read
import proofs.«126427_j1949915152858_2_alg».proof.Proof.LibScatterSlab
import proofs.«126427_j1949915152858_2_alg».proof.Proof.SegDot

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SegDot

variable (A B : (⟨S4096x4096, .f32⟩ : BufTy).Contents (Elt Ideal))

/-! ## The five matrices of dot products -/

/-- Group 0's: columns `0 … 1023`. -/
theorem dot_v3 (r c : Fin 4096) : val_main_v3 (F := Ideal) A B (ix2 r c) = dotAt A B r c 0 1024 (by omega) := by
  rw [val_main_v3_apply]
  unfold dotAt
  refine Finset.sum_congr rfl fun k _ => ?_
  rw [val_main_v1_apply, val_main_v2_apply]
  refine congrArg₂ (· * ·) (congrArg A (funext fun a => ?_)) (congrArg B (funext fun a => ?_)) <;>
    (match a with
      | ⟨0, _⟩ => rfl
      | ⟨1, _⟩ => exact Fin.ext (Nat.zero_add _).symm)

/-- Group 1's: columns `1024 … 2047`. -/
theorem dot_v8 (r c : Fin 4096) : val_main_v8 (F := Ideal) A B (ix2 r c) = dotAt A B r c 1024 1024 (by omega) := by
  rw [val_main_v8_apply]
  unfold dotAt
  refine Finset.sum_congr rfl fun k _ => ?_
  rw [val_main_v6_apply, val_main_v7_apply]
  refine congrArg₂ (· * ·) (congrArg A (funext fun a => ?_)) (congrArg B (funext fun a => ?_)) <;>
    (match a with
      | ⟨0, _⟩ => rfl
      | ⟨1, _⟩ => rfl)

/-- Group 2's: columns `2048 … 3071`. -/
theorem dot_v13 (r c : Fin 4096) : val_main_v13 (F := Ideal) A B (ix2 r c) = dotAt A B r c 2048 1024 (by omega) := by
  rw [val_main_v13_apply]
  unfold dotAt
  refine Finset.sum_congr rfl fun k _ => ?_
  rw [val_main_v11_apply, val_main_v12_apply]
  refine congrArg₂ (· * ·) (congrArg A (funext fun a => ?_)) (congrArg B (funext fun a => ?_)) <;>
    (match a with
      | ⟨0, _⟩ => rfl
      | ⟨1, _⟩ => rfl)

/-- The last group's lower half: columns `3072 … 3583`. -/
theorem dot_v18 (r c : Fin 4096) : val_main_v18 (F := Ideal) A B (ix2 r c) = dotAt A B r c 3072 512 (by omega) := by
  rw [val_main_v18_apply]
  unfold dotAt
  refine Finset.sum_congr rfl fun k _ => ?_
  rw [val_main_v16_apply, val_main_v17_apply]
  refine congrArg₂ (· * ·) (congrArg A (funext fun a => ?_)) (congrArg B (funext fun a => ?_)) <;>
    (match a with
      | ⟨0, _⟩ => rfl
      | ⟨1, _⟩ => rfl)

/-- The last group's upper half: columns `3584 … 4095`. -/
theorem dot_v25 (r c : Fin 4096) : val_main_v25 (F := Ideal) A B (ix2 r c) = dotAt A B r c 3584 512 (by omega) := by
  rw [val_main_v25_apply]
  unfold dotAt
  refine Finset.sum_congr rfl fun k _ => ?_
  rw [val_main_v23_apply, val_main_v24_apply]
  refine congrArg₂ (· * ·) (congrArg A (funext fun a => ?_)) (congrArg B (funext fun a => ?_)) <;>
    (match a with
      | ⟨0, _⟩ => rfl
      | ⟨1, _⟩ => rfl)

/-! ## A scatter of one slab, in this program's spelling -/

/-- The program's accumulating scatter at the position `p` its index array holds: slab `p` gains the update, entry by
    entry; the other slabs are kept. -/
theorem scatter_at (x : (⟨S4x4096x4096, .f32⟩ : BufTy).Contents (Elt Ideal)) (idx : (⟨S1, .i32⟩ : BufTy).Contents (Elt Ideal))
    (u : (⟨S4096x4096, .f32⟩ : BufTy).Contents (Elt Ideal)) (p : Fin 4) (hp : (idx (ix1 0)).toInt = (p.val : Int))
    (g : Fin 4) (r c : Fin 4096) :
    Host.scatter (α := Elt Ideal EltTy.f32) scatter_S4x4096x4096_S1_S4096x4096_01_0_0_0 (FloatOps.addf (F := Ideal) (φ := .f32)) x idx u (ix3 g r c)
      = if g = p then FloatOps.addf (F := Ideal) (φ := .f32) (x (ix3 g r c)) (u (ix2 r c)) else x (ix3 g r c) :=
  ScatterSlab.scatter_slab_apply Gen.scatter_S4x4096x4096_S1_S4096x4096_01_0_0_0_wf (FloatOps.addf (F := Ideal) (φ := .f32)) x idx u p hp g r c

/-- The positions the five index arrays hold: `0`, `1`, `2`, `3`, `3`. -/
theorem pos_v4 : ((val_main_v4 (F := Ideal)) (ix1 0)).toInt = ((0 : Fin 4).val : Int) := by
  rw [val_main_v4_apply, val_main_c_apply]; rfl
theorem pos_v9 : ((val_main_v9 (F := Ideal)) (ix1 0)).toInt = ((1 : Fin 4).val : Int) := by
  rw [val_main_v9_apply, val_main_c_0_apply]; rfl
theorem pos_v14 : ((val_main_v14 (F := Ideal)) (ix1 0)).toInt = ((2 : Fin 4).val : Int) := by
  rw [val_main_v14_apply, val_main_c_1_apply]; rfl
theorem pos_v21 : ((val_main_v21 (F := Ideal)) (ix1 0)).toInt = ((3 : Fin 4).val : Int) := by
  rw [val_main_v21_apply, val_main_c_3_apply]; rfl
theorem pos_v28 : ((val_main_v28 (F := Ideal)) (ix1 0)).toInt = ((3 : Fin 4).val : Int) := by
  rw [val_main_v28_apply, val_main_c_5_apply]; rfl

/-! ## The running totals -/

/-- The array the reference starts from holds the zero word everywhere. -/
theorem at_v0 (i : S4x4096x4096.Idx) : val_main_v0 (F := Ideal) i = Ideal.ofBits .f32 0x00000000#32 := by
  rw [val_main_v0_apply, val_main_cst_apply]; rfl

theorem at_v5 (g : Fin 4) (r c : Fin 4096) : val_main_v5 (F := Ideal) A B (ix3 g r c) = acc0 A B g r c := by
  unfold val_main_v5 acc0
  rw [scatter_at _ _ _ 0 pos_v4, at_v0, dot_v3] <;> rfl

theorem at_v10 (g : Fin 4) (r c : Fin 4096) : val_main_v10 (F := Ideal) A B (ix3 g r c) = acc1 A B g r c := by
  unfold val_main_v10 acc1
  rw [scatter_at _ _ _ 1 pos_v9, at_v5, dot_v8] <;> rfl

theorem at_v15 (g : Fin 4) (r c : Fin 4096) : val_main_v15 (F := Ideal) A B (ix3 g r c) = acc2 A B g r c := by
  unfold val_main_v15 acc2
  rw [scatter_at _ _ _ 2 pos_v14, at_v10, dot_v13] <;> rfl

theorem at_v22 (g : Fin 4) (r c : Fin 4096) : val_main_v22 (F := Ideal) A B (ix3 g r c) = acc3 A B g r c := by
  unfold val_main_v22 acc3
  rw [scatter_at _ _ _ 3 pos_v21, at_v15, val_main_v20_apply, val_main_v19_apply, val_main_cst_2_apply, dot_v18]
  rfl

theorem at_v29 (g : Fin 4) (r c : Fin 4096) : val_main_v29 (F := Ideal) A B (ix3 g r c) = acc4 A B g r c := by
  unfold val_main_v29 acc4
  rw [scatter_at _ _ _ 3 pos_v28, at_v22, val_main_v27_apply, val_main_v26_apply, val_main_cst_4_apply, dot_v25]
  rfl

/-- THE REFERENCE'S RESULT is `SegDot.result` of its two arguments. -/
theorem result_eq : val_main_v29 (F := Ideal) A B = result A B := by
  funext i
  obtain ⟨g, r, c, rfl⟩ : ∃ g r c, i = ix3 g r c := ⟨i 0, i 1, i 2, eq_ix3 i⟩
  rw [at_v29, acc4_eq_entry]
  rfl

end Cert.ReferenceIdeal.RefValue

end
-- ==== Proof.lean ====
/-
  Four groups of dot products: the kernel against its reference, over the extended reals.

  For `A, B : 4096 × 4096` both programs return the `4 × 4096 × 4096` array whose entry `(g, r, c)` pairs row `r` of `A` with
  row `c` of `B` over the 1024 columns of group `g`, the upper half of the last group's columns weighted by `1/2`.
    • The kernel runs a `4 × 2 × 8` grid; point `(g, I, J)` multiplies a `2048 × 1024` block of `A` by the transpose of a
      `512 × 1024` block of `B` whose rows it has first scaled by a row of 1024 weights (`1`, or `1/2` on the upper half when
      `g = 3`), and writes one `2048 × 512` block of slab `g`. `Proof/BodyValue.lean` reads what one point stores, entry by
      entry; `Proof/ArrayValue.lean` shows that the 64 blocks tile the output and that the array after the run is
      `SegDot.result` of the arguments.
    • The reference starts from zeros and adds five matrices of dot products into slabs `0, 1, 2, 3, 3` — the last two
      over the two halves of the last group's columns, times `1` and times `1/2`. `Proof/LibScatterSlab.lean` reads such
      an accumulating scatter of one slab at an index, and `Proof/RefValue.lean` follows the five running totals.
    • `Proof/SegDot.lean` is the mathematics that joins them: `x · 1 = x`, `0 + x = x`, a sum over 1024 columns is the sum
      of its halves, and the nonnegative real `1/2` passes through a finite sum of extended reals even at `±∞`, so
      the equality needs nothing of the inputs.
  No operation of the kernel was rewritten for the ideal reading, so the idealization claim is the trivial one; the three
  frames are the kernels' frame runs and the reference's run with its result dropped.
-/
import proofs.«126427_j1949915152858_2_alg».proof.Defs
import proofs.«126427_j1949915152858_2_alg».proof.Proof.Gen.Kernel
import proofs.«126427_j1949915152858_2_alg».proof.Proof.Gen.Kernel.Skeleton
import proofs.«126427_j1949915152858_2_alg».proof.Proof.Gen.Kernel.Launch
import proofs.«126427_j1949915152858_2_alg».proof.Proof.Gen.Kernel.Points
import proofs.«126427_j1949915152858_2_alg».proof.Proof.KernelFrame
import proofs.«126427_j1949915152858_2_alg».proof.Proof.Gen.KernelIdeal
import proofs.«126427_j1949915152858_2_alg».proof.Proof.Gen.KernelIdeal.Skeleton
import proofs.«126427_j1949915152858_2_alg».proof.Proof.Gen.KernelIdeal.Launch
import proofs.«126427_j1949915152858_2_alg».proof.Proof.Gen.KernelIdeal.Points
import proofs.«126427_j1949915152858_2_alg».proof.Proof.KernelIdealFrame
import proofs.«126427_j1949915152858_2_alg».proof.Proof.Gen.ReferenceIdeal
import proofs.«126427_j1949915152858_2_alg».proof.Proof.Gen.ReferenceIdeal.Run
import proofs.«126427_j1949915152858_2_alg».proof.Proof.Gen.ReferenceIdeal.Read
import proofs.«126427_j1949915152858_2_alg».proof.Proof.Gen.Pre_finite_inputs
import proofs.«126427_j1949915152858_2_alg».proof.Proof.ArrayValue
import proofs.«126427_j1949915152858_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.GenP.frame m ρ

/-- So does the kernel read at the ideal instance. -/
theorem frame_kernelIdeal : Cert.frame_KernelIdeal := fun m ρ _ => Cert.KernelIdeal.GenP.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- From memories that agree on `A` and `B`, both programs end with `SegDot.result A B` in their result arrays. -/
theorem algebraic : Cert.algebraic_KernelIdeal_ReferenceIdeal := by
  intro m ρ m' ρ' _ hagree
  refine ⟨fun c => Cert.SegDot.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
